-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x512x1024 : Shape := ⟨3, ![8, 512, 1024]⟩
abbrev S8x1024 : Shape := ⟨2, ![8, 1024]⟩
abbrev S8x1024x512 : Shape := ⟨3, ![8, 1024, 512]⟩
abbrev S8x512 : Shape := ⟨2, ![8, 512]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg4 : FVec F S8x512 .f32) (main_arg5 : FVec F S8x512 .f32) (main_arg6 : FVec F S8x512 .f32) (main_v13 : IVec S_ 1) (main_v16 : IVec S8x1024x512 1) : IVec S_ 1 :=
  let main_c_5 : IVec S_ 1 := constantI S_ 1 1#1
  let main_v17 : IVec S_ 1 := (fun x v => Host.reduce IntOp.andi x v reducesTo_S8x1024x512_S_d0_1_2 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S8x512 .f32 := Host.absf main_arg5
  let main_cst_8 : FVec F S_ .f32 := constant S_ .f32 0x7F800000#32
  let main_v25 : FVec F S8x512 .f32 := broadcastInDim S8x512 ![] bcast_S_S8x512 main_cst_8
  let main_v26 : IVec S8x512 1 := cmpf .olt main_v24 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v23 main_v27
  let main_v29 : FVec F S8x512 .f32 := Host.absf main_arg6
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  main_v33

def fn {F : FTy → Type} [FloatOps F] (main_arg0 : FVec F S16384x4096 .f32) (main_arg1 : FVec F S8x512x1024 .f32) (main_arg2 : FVec F S8x1024 .f32) (main_arg3 : FVec F S8x1024x512 .f32) (main_arg4 : FVec F S8x512 .f32) (main_arg5 : FVec F S8x512 .f32) (main_arg6 : FVec F S8x512 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1024x512 .f32 := Host.absf main_arg3
  let main_cst_4 : FVec F S_ .f32 := constant S_ .f32 0x7F800000#32
  let main_v15 : FVec F S8x1024x512 .f32 := broadcastInDim S8x1024x512 ![] bcast_S_S8x1024x512 main_cst_4
  let main_v16 : IVec S8x1024x512 1 := cmpf .olt main_v14 main_v15
  fn_part1 (F := F) main_arg4 main_arg5 main_arg6 main_v13 main_v16
-- ==== Kernel.lean ====
abbrev S16384x4096 : Shape := ⟨2, ![16384, 4096]⟩
abbrev S8x512x1024 : Shape := ⟨3, ![8, 512, 1024]⟩
abbrev S8x1024 : Shape := ⟨2, ![8, 1024]⟩
abbrev S8x1024x512 : Shape := ⟨3, ![8, 1024, 512]⟩
abbrev S8x512 : Shape := ⟨2, ![8, 512]⟩
abbrev S16384x512x8 : Shape := ⟨3, ![16384, 512, 8]⟩
abbrev S8x16384x512 : Shape := ⟨3, ![8, 16384, 512]⟩
abbrev S1x2048x512 : Shape := ⟨3, ![1, 2048, 512]⟩
abbrev S2048x512 : Shape := ⟨2, ![2048, 512]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S2048x1024 : Shape := ⟨2, ![2048, 1024]⟩
abbrev S1x1024x512 : Shape := ⟨3, ![1, 1024, 512]⟩
abbrev S1024x512 : Shape := ⟨2, ![1024, 512]⟩
abbrev S1x512 : Shape := ⟨2, ![1, 512]⟩
abbrev S512 : Shape := ⟨1, ![512]⟩
abbrev S2048 : Shape := ⟨1, ![2048]⟩
abbrev S2048x1 : Shape := ⟨2, ![2048, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S8x512x1024, .f32⟩
  | .hbm, ⟨2, _⟩ => ⟨S8x1024, .f32⟩
  | .hbm, ⟨3, _⟩ => ⟨S8x1024x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S16384x512x8, .f32⟩
  | .hbm, ⟨8, _⟩ => ⟨S8x16384x512, .f32⟩
  | .hbm, ⟨9, _⟩ => ⟨S8x16384x512, .bf16⟩
  | .hbm, ⟨10, _⟩ => ⟨S8x512x1024, .bf16⟩
  | .hbm, ⟨11, _⟩ => ⟨S8x1024x512, .bf16⟩
  | .hbm, ⟨12, _⟩ => ⟨S16384x4096, .f32⟩
  | .local _ .vmem, ⟨0, _⟩ => ⟨S1x2048x512, .bf16⟩
  | .local _ .vmem, ⟨1, _⟩ => ⟨S1x2048x512, .bf16⟩
  | .local _ .vmem, ⟨2, _⟩ => ⟨S8x512x1024, .bf16⟩
  | .local _ .vmem, ⟨3, _⟩ => ⟨S8x1024, .f32⟩
  | .local _ .vmem, ⟨4, _⟩ => ⟨S8x1024x512, .bf16⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S2048x512, .f32⟩
  | .local _ .vmem, ⟨9, _⟩ => ⟨S2048x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg0 : BitVec 32 := BitVec.ofNat 32 (i 0).val
  let v2 : Index := Scalar.indexCast arg0
  let c0_2 : Index := 0#32
  let c0_3 : Index := 0#32
  ![v2.toNat, 0, 0]
def k0_off2 (i : grid0.Coords) : Fin 2 → Nat :=
  let arg0 : BitVec 32 := BitVec.ofNat 32 (i 0).val
  let v5 : Index := Scalar.indexCast arg0
  let c0_4 : Index := 0#32
  ![v5.toNat, 0]
def k0_off3 (i : grid0.Coords) : Fin 3 → Nat :=
  let arg0 : BitVec 32 := BitVec.ofNat 32 (i 0).val
  let v16 : Index := Scalar.indexCast arg0
  let c0_6 : Index := 0#32
  let c0_7 : Index := 0#32
  ![v16.toNat, 0, 0]
def k0_off4 (i : grid0.Coords) : Fin 2 → Nat :=
  let arg0 : BitVec 32 := BitVec.ofNat 32 (i 0).val
  let v19 : Index := Scalar.indexCast arg0
  let c0_8 : Index := 0#32
  ![v19.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16384x4096_S16384x512x8 : S16384x4096.ShapeCasts S16384x512x8
  transposes_S16384x512x8_S8x16384x512_2_0_1 : S16384x512x8.Transposes [2, 0, 1] S8x16384x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  h_S1x512x1024 : 0 < S1x512x1024.numel
  shapeCasts_S1x512x1024_S512x1024 : S1x512x1024.ShapeCasts S512x1024
  h_S1x1024 : 0 < S1x1024.numel
  shapeCasts_S1x1024_S1024 : S1x1024.ShapeCasts S1024
  shapeCasts_S1024_S1x1024 : S1024.ShapeCasts S1x1024
  broadcasts_S1x1024_S2048x1024 : S1x1024.Broadcasts S2048x1024
  h_S1x1024x512 : 0 < S1x1024x512.numel
  shapeCasts_S1x1024x512_S1024x512 : S1x1024x512.ShapeCasts S1024x512
  h_S1x512 : 0 < S1x512.numel
  shapeCasts_S1x512_S512 : S1x512.ShapeCasts S512
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  dot_S2048x512_S512x1024_S2048x1024_1_0_0_1_n_n_wf : DotDims.WF S2048x512 S512x1024 S2048x1024 [1] [0] [0] [1] [] []
  dot_S2048x1024_S1024x512_S2048x512_1_0_0_1_n_n_wf : DotDims.WF S2048x1024 S1024x512 S2048x512 [1] [0] [0] [1] [] []
  hrank0 : 0 < grid0.rank
  k0_off1_inb : ∀ i : grid0.Coords, ∀ a, (k0_off1 i) a + S1x512x1024.size a ≤ S8x512x1024.size a
  k0_off2_inb : ∀ i : grid0.Coords, ∀ a, (k0_off2 i) a + S1x1024.size a ≤ S8x1024.size a
  k0_off3_inb : ∀ i : grid0.Coords, ∀ a, (k0_off3 i) a + S1x1024x512.size a ≤ S8x1024x512.size a
  k0_off4_inb : ∀ i : grid0.Coords, ∀ a, (k0_off4 i) a + S1x512.size a ≤ S8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x16384x512.size a
  hwx0_0 : ∀ i : grid0.Coords, EltTy.bits .bf16 = 32 ∨ (Rect.block (s := S8x16384x512) S1x2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x1024.size a ≤ S8x512x1024.size a
  hwx0_1 : ∀ i : grid0.Coords, EltTy.bits .bf16 = 32 ∨ (Rect.block (s := S8x512x1024) S8x512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x1024.size a
  hwx0_2 : ∀ i : grid0.Coords, EltTy.bits .f32 = 32 ∨ (Rect.block (s := S8x1024) S8x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024x512.size a ≤ S8x1024x512.size a
  hwx0_3 : ∀ i : grid0.Coords, EltTy.bits .bf16 = 32 ∨ (Rect.block (s := S8x1024x512) S8x1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .f32 = 32 ∨ (Rect.block (s := S8x512) S8x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S8x512.size a
  hwx0_6 : ∀ i : grid0.Coords, EltTy.bits .f32 = 32 ∨ (Rect.block (s := S8x512) S8x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S16384x4096.size a
  hwx0_7 : ∀ i : grid0.Coords, EltTy.bits .f32 = 32 ∨ (Rect.block (s := S16384x4096) S2048x512.size (cc0_transform_7 i) (hinb0_7 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v2) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8x512x1024 : Shape := ⟨3, ![8, 512, 1024]⟩
abbrev S8x1024 : Shape := ⟨2, ![8, 1024]⟩
abbrev S8x1024x512 : Shape := ⟨3, ![8, 1024, 512]⟩
abbrev S8x512 : Shape := ⟨2, ![8, 512]⟩
abbrev S16384x512x8 : Shape := ⟨3, ![16384, 512, 8]⟩
abbrev S8x16384x512 : Shape := ⟨3, ![8, 16384, 512]⟩
abbrev S8x16384x1024 : Shape := ⟨3, ![8, 16384, 1024]⟩
abbrev S8x1x1024 : Shape := ⟨3, ![8, 1, 1024]⟩
abbrev S_ : Shape := ⟨0, ![]⟩
abbrev S8x1x512 : Shape := ⟨3, ![8, 1, 512]⟩
abbrev S8x16384 : Shape := ⟨2, ![8, 16384]⟩
abbrev S8x16384x1 : Shape := ⟨3, ![8, 16384, 1]⟩
abbrev S16384x8x512 : Shape := ⟨3, ![16384, 8, 512]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x512x1024, .f32⟩
  | .hbm, ⟨2, _⟩ => ⟨S8x1024, .f32⟩
  | .hbm, ⟨3, _⟩ => ⟨S8x1024x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S16384x512x8, .f32⟩
  | .hbm, ⟨8, _⟩ => ⟨S8x16384x512, .f32⟩
  | .hbm, ⟨9, _⟩ => ⟨S8x16384x1024, .f32⟩
  | .hbm, ⟨10, _⟩ => ⟨S8x1x1024, .f32⟩
  | .hbm, ⟨11, _⟩ => ⟨S8x16384x1024, .f32⟩
  | .hbm, ⟨12, _⟩ => ⟨S8x16384x1024, .f32⟩
  | .hbm, ⟨13, _⟩ => ⟨S_, .f32⟩
  | .hbm, ⟨14, _⟩ => ⟨S8x16384x1024, .f32⟩
  | .hbm, ⟨15, _⟩ => ⟨S8x16384x1024, .f32⟩
  | .hbm, ⟨16, _⟩ => ⟨S8x16384x1024, .f32⟩
  | .hbm, ⟨17, _⟩ => ⟨S8x16384x512, .f32⟩
  | .hbm, ⟨18, _⟩ => ⟨S8x1x512, .f32⟩
  | .hbm, ⟨19, _⟩ => ⟨S8x16384x512, .f32⟩
  | .hbm, ⟨20, _⟩ => ⟨S8x16384x512, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S_, .f32⟩
  | .hbm, ⟨25, _⟩ => ⟨S8x16384x1, .f32⟩
  | .hbm, ⟨26, _⟩ => ⟨S8x16384x1, .f32⟩
  | .hbm, ⟨27, _⟩ => ⟨S8x16384x512, .f32⟩
  | .hbm, ⟨28, _⟩ => ⟨S8x16384x512, .f32⟩
  | .hbm, ⟨29, _⟩ => ⟨S8x16384x512, .f32⟩
  | .hbm, ⟨30, _⟩ => ⟨S_, .f32⟩
  | .hbm, ⟨31, _⟩ => ⟨S8x16384, .f32⟩
  | .hbm, ⟨32, _⟩ => ⟨S8x16384x1, .f32⟩
  | .hbm, ⟨33, _⟩ => ⟨S_, .f32⟩
  | .hbm, ⟨34, _⟩ => ⟨S8x16384x1, .f32⟩
  | .hbm, ⟨35, _⟩ => ⟨S8x16384x1, .f32⟩
  | .hbm, ⟨36, _⟩ => ⟨S8x16384x512, .f32⟩
  | .hbm, ⟨37, _⟩ => ⟨S8x16384x512, .f32⟩
  | .hbm, ⟨38, _⟩ => ⟨S_, .f32⟩
  | .hbm, ⟨39, _⟩ => ⟨S8x16384x1, .f32⟩
  | .hbm, ⟨40, _⟩ => ⟨S8x16384x1, .f32⟩
  | .hbm, ⟨41, _⟩ => ⟨S8x16384x1, .f32⟩
  | .hbm, ⟨42, _⟩ => ⟨S8x16384x512, .f32⟩
  | .hbm, ⟨43, _⟩ => ⟨S8x16384x512, .f32⟩
  | .hbm, ⟨44, _⟩ => ⟨S8x1x512, .f32⟩
  | .hbm, ⟨45, _⟩ => ⟨S8x16384x512, .f32⟩
  | .hbm, ⟨46, _⟩ => ⟨S8x16384x512, .f32⟩
  | .hbm, ⟨47, _⟩ => ⟨S8x1x512, .f32⟩
  | .hbm, ⟨48, _⟩ => ⟨S8x16384x512, .f32⟩
  | .hbm, ⟨49, _⟩ => ⟨S8x16384x512, .f32⟩
  | .hbm, ⟨50, _⟩ => ⟨S16384x8x512, .f32⟩
  | .hbm, ⟨51, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  shapeCasts_S16384x4096_S16384x512x8 : S16384x4096.ShapeCasts S16384x512x8
  transposes_S16384x512x8_S8x16384x512_2_0_1 : S16384x512x8.Transposes [2, 0, 1] S8x16384x512
  bcast_S8x1024_S8x1x1024_0_2 : S8x1024.BroadcastsInDim S8x1x1024 (![0, 2] : Fin 2 → Fin S8x1x1024.rank)
  bcast_S8x1x1024_S8x16384x1024_0_1_2 : S8x1x1024.BroadcastsInDim S8x16384x1024 (![0, 1, 2] : Fin 3 → Fin S8x16384x1024.rank)
  bcast_S_S8x16384x1024 : S_.BroadcastsInDim S8x16384x1024 (![] : Fin 0 → Fin S8x16384x1024.rank)
  bcast_S8x512_S8x1x512_0_2 : S8x512.BroadcastsInDim S8x1x512 (![0, 2] : Fin 2 → Fin S8x1x512.rank)
  bcast_S8x1x512_S8x16384x512_0_1_2 : S8x1x512.BroadcastsInDim S8x16384x512 (![0, 1, 2] : Fin 3 → Fin S8x16384x512.rank)
  reducesTo_S8x16384x512_S8x16384_d2 : S8x16384x512.ReducesTo [2] S8x16384
  h_S_ : 0 < S_.numel
  bcast_S8x16384_S8x16384x1_0_1 : S8x16384.BroadcastsInDim S8x16384x1 (![0, 1] : Fin 2 → Fin S8x16384x1.rank)
  bcast_S_S8x16384x1 : S_.BroadcastsInDim S8x16384x1 (![] : Fin 0 → Fin S8x16384x1.rank)
  bcast_S8x16384x1_S8x16384x512_0_1_2 : S8x16384x1.BroadcastsInDim S8x16384x512 (![0, 1, 2] : Fin 3 → Fin S8x16384x512.rank)
  transposes_S8x16384x512_S16384x8x512_1_0_2 : S8x16384x512.Transposes [1, 0, 2] S16384x8x512
  shapeCasts_S16384x8x512_S16384x4096 : S16384x8x512.ShapeCasts S16384x4096
  dot_S8x16384x512_S8x512x1024_S8x16384x1024_2_1_1_2_0_0_wf : DotDims.WF S8x16384x512 S8x512x1024 S8x16384x1024 [2] [1] [1] [2] [0] [0]
  dot_S8x16384x1024_S8x1024x512_S8x16384x512_2_1_1_2_0_0_wf : DotDims.WF S8x16384x1024 S8x1024x512 S8x16384x512 [2] [1] [1] [2] [0] [0]

variable [Facts₀]

def dot_S8x16384x512_S8x512x1024_S8x16384x1024_2_1_1_2_0_0 : DotDims S8x16384x512 S8x512x1024 S8x16384x1024 where
  lhsContracting := [2]
  rhsContracting := [1]
  lhsNonContracting := [1]
  rhsNonContracting := [2]
  lhsBatch := [0]
  rhsBatch := [0]
  wf := dot_S8x16384x512_S8x512x1024_S8x16384x1024_2_1_1_2_0_0_wf
def dot_S8x16384x1024_S8x1024x512_S8x16384x512_2_1_1_2_0_0 : DotDims S8x16384x1024 S8x1024x512 S8x16384x512 where
  lhsContracting := [2]
  rhsContracting := [1]
  lhsNonContracting := [1]
  rhsNonContracting := [2]
  lhsBatch := [0]
  rhsBatch := [0]
  wf := dot_S8x16384x1024_S8x1024x512_S8x16384x512_2_1_1_2_0_0_wf

class Facts : Prop extends Facts₀ where

variable [Facts]
-- ==== Proof.Spec.lean ====
/-
  The function both programs compute, stated once and away from either program.

  The 4096 input columns are dealt round-robin to 8 groups (column `8a + k` is entry `a` of group `k`), so for a batch
  row `b` group `k` sees the 512-vector `x a = tri (b, 8a + k)`. Each group has its own two-layer perceptron and layer
  normalisation:
    hidden   h j = (max (Σ_a x a · W1 (k, a, j) + b1 (k, j)) 0)²                    (j < 1024)
    second   y d = Σ_j h j · W2 (k, j, d) + b2 (k, d)                              (d < 512)
    mean     μ   = (Σ_d y d) / 512
    result   z d = (y d − μ) · rsqrt ((Σ_e (y e − μ)²) / 512 + ε) · γ (k, d) + β (k, d)
  and the 8 groups' 512-vectors are laid side by side: output column `c` is entry `c % 512` of group `c / 512`.
  Everything is over the extended reals with the ideal instance's operations; the three float literals the programs
  share (0, 512 and ε) are kept as their bit patterns, the same words on both sides, never evaluated.
-/
import Idealize.ShloMosaic.PureOps.Ideal
import Idealize.ShloMosaic.Lib.ValueIdx

noncomputable section

namespace Cert.GroupMlp

open Idealize.ShloMosaic Idealize.ShloMosaic.ValueIdx

/-- The literal 0.0. -/
abbrev zeroLit : EReal := Ideal.ofBits .f32 0x00000000#32
/-- The literal 512.0, the length of a normalised row. -/
abbrev countLit : EReal := Ideal.ofBits .f32 0x44000000#32
/-- The literal ε the variance is shifted by. -/
abbrev epsLit : EReal := Ideal.ofBits .f32 0x3727C5AC#32

/-- First layer and squared rectifier: entry `j` of the hidden row. -/
def hidden (x : Fin 512 → EReal) (w : Fin 512 → Fin 1024 → EReal) (b : Fin 1024 → EReal) (j : Fin 1024) : EReal :=
  max ((∑ a : Fin 512, x a * w a j) + b j) zeroLit * max ((∑ a : Fin 512, x a * w a j) + b j) zeroLit

/-- Second layer: entry `d` of the row that is then normalised. -/
def second (h : Fin 1024 → EReal) (w : Fin 1024 → Fin 512 → EReal) (b : Fin 512 → EReal) (d : Fin 512) : EReal :=
  (∑ j : Fin 1024, h j * w j d) + b d

/-- The mean of a row. -/
def mean (y : Fin 512 → EReal) : EReal := Ideal.div (∑ d : Fin 512, y d) countLit

/-- The reciprocal standard deviation of a row: rsqrt of the mean squared deviation plus ε. -/
def invStd (y : Fin 512 → EReal) : EReal :=
  Ideal.rsqrt (Ideal.div (∑ e : Fin 512, (y e - mean y) * (y e - mean y)) countLit + epsLit)

/-- Layer normalisation with scale `g` and shift `s`: entry `d`. -/
def normalized (y g s : Fin 512 → EReal) (d : Fin 512) : EReal :=
  (y d - mean y) * invStd y * g d + s d

/-- The group an output column belongs to, and its place inside the group. -/
def groupOf (c : Fin 4096) : Fin 8 := ⟨c.val / 512, by have := c.isLt; omega⟩
def placeOf (c : Fin 4096) : Fin 512 := ⟨c.val % 512, by omega⟩
/-- The input column that is entry `a` of group `k`. -/
def columnOf (a : Fin 512) (k : Fin 8) : Fin 4096 := ⟨a.val * 8 + k.val, by have := a.isLt; have := k.isLt; omega⟩

section
variable (tri : (⟨2, ![16384, 4096]⟩ : Shape).Idx → EReal)
  (W1 : (⟨3, ![8, 512, 1024]⟩ : Shape).Idx → EReal) (b1 : (⟨2, ![8, 1024]⟩ : Shape).Idx → EReal)
  (W2 : (⟨3, ![8, 1024, 512]⟩ : Shape).Idx → EReal) (b2 : (⟨2, ![8, 512]⟩ : Shape).Idx → EReal)
  (g : (⟨2, ![8, 512]⟩ : Shape).Idx → EReal) (s : (⟨2, ![8, 512]⟩ : Shape).Idx → EReal)

/-- What group `k` sees of batch row `b`. -/
def groupInput (k : Fin 8) (b : Fin 16384) (a : Fin 512) : EReal := tri (ix2 b (columnOf a k))

/-- Group `k`'s hidden row for batch row `b`. -/
def groupHidden (k : Fin 8) (b : Fin 16384) : Fin 1024 → EReal :=
  hidden (groupInput tri k b) (fun a j => W1 (ix3 k a j)) (fun j => b1 (ix2 k j))

/-- Group `k`'s second-layer row for batch row `b`. -/
def groupSecond (k : Fin 8) (b : Fin 16384) : Fin 512 → EReal :=
  second (groupHidden tri W1 b1 k b) (fun j d => W2 (ix3 k j d)) (fun d => b2 (ix2 k d))

/-- Group `k`'s normalised row for batch row `b`. -/
def groupRow (k : Fin 8) (b : Fin 16384) : Fin 512 → EReal :=
  normalized (groupSecond tri W1 b1 W2 b2 k b) (fun d => g (ix2 k d)) (fun d => s (ix2 k d))

/-- The whole result: the 8 groups' rows side by side. -/
def result : (⟨2, ![16384, 4096]⟩ : Shape).Idx → EReal :=
  fun i => groupRow tri W1 b1 W2 b2 g s (groupOf (i 1)) (i 0) (placeOf (i 1))

theorem result_apply (b : Fin 16384) (c : Fin 4096) :
    result tri W1 b1 W2 b2 g s (ix2 b c) = groupRow tri W1 b1 W2 b2 g s (groupOf c) b (placeOf c) := rfl
end

end Cert.GroupMlp

end
-- ==== Proof.RefStages.lean ====
/-
  The reference, stage by stage, is the specification.

  The reference regroups the input by a reshape to [16384, 512, 8] and a transpose that brings the group axis first,
  then works on [8, 16384, ·] arrays throughout: a batched contraction per layer, biases broadcast over the batch axis,
  sums over the last axis kept as a unit axis, and at the end a transpose back and a reshape to [16384, 4096]. Read at
  coordinates (group `k`, batch row `b`, entry), each stage is the corresponding piece of the specification: the
  contraction's operand indices are (k, b, ·) and (k, ·, j), a broadcast reads its operand's one entry, and the host's
  sum starts from the literal zero, which adds nothing.
-/
import proofs.«114652_j85031762526811_1_alg».proof.Proof.Gen.ReferenceIdeal.Read
import proofs.«114652_j85031762526811_1_alg».proof.Proof.Spec

noncomputable section

namespace Cert.ReferenceIdeal.Stages

open Cert.ReferenceIdeal Cert.ReferenceIdeal.Read Cert.GroupMlp Idealize.ShloMosaic Idealize.ShloMosaic.ValueIdx

/-- The regrouped input at (k, b, a) is the input at row `b`, column `8a + k`. -/
theorem regrouped (x0 : (⟨S16384x4096, .f32⟩ : BufTy).Contents (Elt Ideal)) (k : Fin 8) (b : Fin 16384) (a : Fin 512) :
    val_main_v1 (F := Ideal) x0 (ix3 k b a) = groupInput x0 k b a := by
  rw [val_main_v1_apply, val_main_v0_apply]
  refine congrArg x0 (funext fun ax => Fin.ext ?_)
  have hk := k.isLt; have ha := a.isLt; have hb := b.isLt
  match ax with
  | ⟨0, _⟩ => show ((b.val * 512 + a.val) * 8 + k.val) / 4096 = b.val; omega
  | ⟨1, _⟩ => show ((b.val * 512 + a.val) * 8 + k.val) % 4096 = a.val * 8 + k.val; omega

/-- The first layer before the rectifier, at (k, b, j). -/
theorem firstLinear (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (k : Fin 8) (b : Fin 16384) (j : Fin 1024) :
    val_main_v5 (F := Ideal) x0 x1 x2 (ix3 k b j)
      = (∑ a : Fin 512, groupInput x0 k b a * x1 (ix3 k a j)) + x2 (ix2 k j) := by
  rw [val_main_v5_apply, val_main_v2_apply, val_main_v4_apply, val_main_v3_apply]
  refine congrArg₂ (· + ·) (Finset.sum_congr rfl fun a _ => ?_) (congrArg x2 ?_)
  · have el : lidx_main_v2 (ix3 k b j) a = ix3 k b a :=
      funext fun ax => Fin.ext (by match ax with | ⟨0, _⟩ => rfl | ⟨1, _⟩ => rfl | ⟨2, _⟩ => rfl)
    have er : ridx_main_v2 (ix3 k b j) a = ix3 k a j :=
      funext fun ax => Fin.ext (by match ax with | ⟨0, _⟩ => rfl | ⟨1, _⟩ => rfl | ⟨2, _⟩ => rfl)
    rw [el, er, regrouped]
  · exact funext fun ax => Fin.ext (by match ax with | ⟨0, _⟩ => rfl | ⟨1, _⟩ => rfl)

/-- The hidden activations at (k, b, j). -/
theorem hidden_eq (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (k : Fin 8) (b : Fin 16384) (j : Fin 1024) :
    val_main_v7 (F := Ideal) x0 x1 x2 (ix3 k b j) = groupHidden x0 x1 x2 k b j := by
  rw [val_main_v7_apply, val_main_v6_apply, firstLinear, val_main_call0_v0_apply, val_main_call0_cst_apply]
  rfl

/-- The second layer at (k, b, d). -/
theorem second_eq (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (x3 : (⟨S8x1024x512, .f32⟩ : BufTy).Contents (Elt Ideal)) (x4 : (⟨S8x512, .f32⟩ : BufTy).Contents (Elt Ideal)) (k : Fin 8) (b : Fin 16384) (d : Fin 512) :
    val_main_v11 (F := Ideal) x0 x1 x2 x3 x4 (ix3 k b d) = groupSecond x0 x1 x2 x3 x4 k b d := by
  rw [val_main_v11_apply, val_main_v8_apply, val_main_v10_apply, val_main_v9_apply]
  refine congrArg₂ (· + ·) (Finset.sum_congr rfl fun j _ => ?_) (congrArg x4 ?_)
  · have el : lidx_main_v8 (ix3 k b d) j = ix3 k b j :=
      funext fun ax => Fin.ext (by match ax with | ⟨0, _⟩ => rfl | ⟨1, _⟩ => rfl | ⟨2, _⟩ => rfl)
    have er : ridx_main_v8 (ix3 k b d) j = ix3 k j d :=
      funext fun ax => Fin.ext (by match ax with | ⟨0, _⟩ => rfl | ⟨1, _⟩ => rfl | ⟨2, _⟩ => rfl)
    rw [el, er, hidden_eq]
  · exact funext fun ax => Fin.ext (by match ax with | ⟨0, _⟩ => rfl | ⟨1, _⟩ => rfl)

/-- The row mean, kept as a unit axis, at (k, b, ·). -/
theorem mean_eq (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (x3 : (⟨S8x1024x512, .f32⟩ : BufTy).Contents (Elt Ideal)) (x4 : (⟨S8x512, .f32⟩ : BufTy).Contents (Elt Ideal)) (k : Fin 8) (b : Fin 16384) (u : Fin 1) :
    val_main_v15 (F := Ideal) x0 x1 x2 x3 x4 (ix3 k b u) = mean (groupSecond x0 x1 x2 x3 x4 k b) := by
  rw [val_main_v15_apply, val_main_v13_apply, val_main_v12_apply, val_main_v14_apply, val_main_cst_0_apply,
    val_main_cst_apply]
  show Ideal.div (Ideal.ofBits .f32 0x00000000#32 + _) _ = _
  rw [Ideal.ofBits_zero_f32, zero_add]
  refine congrArg (Ideal.div · _) (Finset.sum_congr rfl fun e _ => ?_)
  have ei : idx_main_v12 (idx_main_v13 (ix3 k b u)) e = ix3 k b e :=
    funext fun ax => Fin.ext (by match ax with | ⟨0, _⟩ => rfl | ⟨1, _⟩ => rfl | ⟨2, _⟩ => rfl)
  rw [ei, second_eq]

/-- The reciprocal standard deviation, kept as a unit axis, at (k, b, ·). -/
theorem invStd_eq (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (x3 : (⟨S8x1024x512, .f32⟩ : BufTy).Contents (Elt Ideal)) (x4 : (⟨S8x512, .f32⟩ : BufTy).Contents (Elt Ideal)) (k : Fin 8) (b : Fin 16384) (u : Fin 1) :
    val_main_v27 (F := Ideal) x0 x1 x2 x3 x4 (ix3 k b u) = invStd (groupSecond x0 x1 x2 x3 x4 k b) := by
  rw [val_main_v27_apply, val_main_v26_apply, val_main_v22_apply, val_main_v20_apply, val_main_v19_apply,
    val_main_v21_apply, val_main_cst_2_apply, val_main_v25_apply, val_main_cst_3_apply, val_main_cst_1_apply]
  show Ideal.rsqrt (Ideal.div (Ideal.ofBits .f32 0x00000000#32 + _) _ + _) = _
  rw [Ideal.ofBits_zero_f32, zero_add]
  refine congrArg (fun t => Ideal.rsqrt (Ideal.div t _ + _)) (Finset.sum_congr rfl fun e _ => ?_)
  have ei : idx_main_v19 (idx_main_v20 (ix3 k b u)) e = ix3 k b e :=
    funext fun ax => Fin.ext (by match ax with | ⟨0, _⟩ => rfl | ⟨1, _⟩ => rfl | ⟨2, _⟩ => rfl)
  have e0 : idx_main_v16 (ix3 k b e) = ix3 k b (0 : Fin 1) :=
    funext fun ax => Fin.ext (by match ax with | ⟨0, _⟩ => rfl | ⟨1, _⟩ => rfl | ⟨2, _⟩ => rfl)
  rw [ei, val_main_v18_apply, val_main_v17_apply, val_main_v16_apply, e0, second_eq, mean_eq]
  rfl

/-- The normalised, scaled and shifted row at (k, b, d). -/
theorem normalized_eq (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (x3 : (⟨S8x1024x512, .f32⟩ : BufTy).Contents (Elt Ideal)) (x4 : (⟨S8x512, .f32⟩ : BufTy).Contents (Elt Ideal)) (x5 x6 : (⟨S8x512, .f32⟩ : BufTy).Contents (Elt Ideal)) (k : Fin 8) (b : Fin 16384) (d : Fin 512) :
    val_main_v35 (F := Ideal) x0 x1 x2 x3 x4 x5 x6 (ix3 k b d) = groupRow x0 x1 x2 x3 x4 x5 x6 k b d := by
  have e0 : idx_main_v23 (ix3 k b d) = ix3 k b (0 : Fin 1) :=
    funext fun ax => Fin.ext (by match ax with | ⟨0, _⟩ => rfl | ⟨1, _⟩ => rfl | ⟨2, _⟩ => rfl)
  have e1 : idx_main_v28 (ix3 k b d) = ix3 k b (0 : Fin 1) :=
    funext fun ax => Fin.ext (by match ax with | ⟨0, _⟩ => rfl | ⟨1, _⟩ => rfl | ⟨2, _⟩ => rfl)
  have e5 : idx_main_v30 (idx_main_v31 (ix3 k b d)) = ix2 k d :=
    funext fun ax => Fin.ext (by match ax with | ⟨0, _⟩ => rfl | ⟨1, _⟩ => rfl)
  have e6 : idx_main_v33 (idx_main_v34 (ix3 k b d)) = ix2 k d :=
    funext fun ax => Fin.ext (by match ax with | ⟨0, _⟩ => rfl | ⟨1, _⟩ => rfl)
  rw [val_main_v35_apply, val_main_v32_apply, val_main_v29_apply, val_main_v24_apply, val_main_v23_apply, e0,
    val_main_v28_apply, e1, val_main_v31_apply, val_main_v30_apply, e5, val_main_v34_apply, val_main_v33_apply, e6,
    second_eq, mean_eq, invStd_eq]
  rfl

/-- The reference's result is the specification's, at every index. -/
theorem result_eq (x0 : (⟨S16384x4096, .f32⟩ : BufTy).Contents (Elt Ideal)) (x1 : (⟨S8x512x1024, .f32⟩ : BufTy).Contents (Elt Ideal)) (x2 : (⟨S8x1024, .f32⟩ : BufTy).Contents (Elt Ideal)) (x3 : (⟨S8x1024x512, .f32⟩ : BufTy).Contents (Elt Ideal)) (x4 : (⟨S8x512, .f32⟩ : BufTy).Contents (Elt Ideal)) (x5 x6 : (⟨S8x512, .f32⟩ : BufTy).Contents (Elt Ideal)) :
    val_main_v37 (F := Ideal) x0 x1 x2 x3 x4 x5 x6 = result x0 x1 x2 x3 x4 x5 x6 := by
  funext i
  obtain ⟨b, c, rfl⟩ : ∃ (b : Fin 16384) (c : Fin 4096), i = ix2 b c := ⟨i 0, i 1, eq_ix2 i⟩
  rw [val_main_v37_apply, val_main_v36_apply, result_apply]
  have ei : idx_main_v36 (idx_main_v37 (ix2 b c)) = ix3 (groupOf c) b (placeOf c) := by
    have hb := b.isLt; have hc := c.isLt
    refine funext fun ax => Fin.ext ?_
    match ax with
    | ⟨0, _⟩ => show (b.val * 4096 + c.val) / 512 % 8 = c.val / 512; omega
    | ⟨1, _⟩ => show (b.val * 4096 + c.val) / 4096 = b.val; omega
    | ⟨2, _⟩ => show (b.val * 4096 + c.val) % 512 = c.val % 512; omega
  rw [ei, normalized_eq]

end Cert.ReferenceIdeal.Stages

end
-- ==== Proof.StoredBlock.lean ====
/-
  What one grid point leaves in the output's staging buffer.

  The body makes one store, through the whole [2048, 512] rectangle, of a value computed from seven loads: the point's
  own [1, 2048, 512] block of the regrouped input, read whole, and — out of the six operands that stay resident for all
  eight groups — the slab of the point's group `k` (its first grid coordinate): rows `k` of the two weight stacks, of the
  two biases, of the scale and of the shift. So the buffer ends holding that value of those seven pieces, whatever it
  held before (the body's one load of the output buffer is not used).
-/
import proofs.«114652_j85031762526811_1_alg».proof.Proof.Gen.KernelIdeal.Frame
import Idealize.ShloMosaic.Lib.Pipeline.Value
import Idealize.ShloMosaic.Lib.Tactic
import Idealize.ShloMosaic.Lib.ValueIdx

noncomputable section

namespace Cert.KernelIdeal.Stored

open Cert.KernelIdeal Cert.KernelIdeal.Gen Idealize.ShloMosaic Idealize.ShloMosaic.TcCoe Idealize.ShloMosaic.Tactic Idealize.ShloMosaic.ValueIdx Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Group `i 0`'s slab of the first weight stack, as the body loads it. -/
abbrev slabW1 (i : grid0.Coords) (x : Vec F S8x512x1024 .bf16) : Vec F S1x512x1024 .bf16 :=
  View.ld x (Rect.unit (s := S8x512x1024) (k0_off1 i) S1x512x1024.size (k0_off1_inb i))
/-- Group `i 0`'s row of the first bias. -/
abbrev slabB1 (i : grid0.Coords) (x : Vec F S8x1024 .f32) : Vec F S1x1024 .f32 :=
  View.ld x (Rect.unit (s := S8x1024) (k0_off2 i) S1x1024.size (k0_off2_inb i))
/-- Group `i 0`'s slab of the second weight stack. -/
abbrev slabW2 (i : grid0.Coords) (x : Vec F S8x1024x512 .bf16) : Vec F S1x1024x512 .bf16 :=
  View.ld x (Rect.unit (s := S8x1024x512) (k0_off3 i) S1x1024x512.size (k0_off3_inb i))
/-- Group `i 0`'s row of an [8, 512] operand (the second bias, the scale, the shift). -/
abbrev slabRow (i : grid0.Coords) (x : Vec F S8x512 .f32) : Vec F S1x512 .f32 :=
  View.ld x (Rect.unit (s := S8x512) (k0_off4 i) S1x512.size (k0_off4_inb i))

/-! A slab read at its own index is the stack read at the group's row: the load's rectangle starts at `(k, 0, …)`. -/

theorem slabW1_apply (i : grid0.Coords) (k : Fin 8) (hk : (i 0).val = k.val) (x : Vec F S8x512x1024 .bf16)
    (a : Fin 512) (j : Fin 1024) : slabW1 i x (ix3 (0 : Fin 1) a j) = x (ix3 k a j) := by
  have e := k0_off1_eq i
  refine congrArg x (funext fun ax => Fin.ext ?_)
  match ax with
  | ⟨0, _⟩ => show k0_off1 i 0 + 1 * 0 = k.val; rw [e]; show (i 0).val + 1 * 0 = k.val; omega
  | ⟨1, _⟩ => show k0_off1 i 1 + 1 * a.val = a.val; rw [e]; show 0 + 1 * a.val = a.val; omega
  | ⟨2, _⟩ => show k0_off1 i 2 + 1 * j.val = j.val; rw [e]; show 0 + 1 * j.val = j.val; omega

theorem slabB1_apply (i : grid0.Coords) (k : Fin 8) (hk : (i 0).val = k.val) (x : Vec F S8x1024 .f32)
    (j : Fin 1024) : slabB1 i x (ix2 (0 : Fin 1) j) = x (ix2 k j) := by
  have e := k0_off2_eq i
  refine congrArg x (funext fun ax => Fin.ext ?_)
  match ax with
  | ⟨0, _⟩ => show k0_off2 i 0 + 1 * 0 = k.val; rw [e]; show (i 0).val + 1 * 0 = k.val; omega
  | ⟨1, _⟩ => show k0_off2 i 1 + 1 * j.val = j.val; rw [e]; show 0 + 1 * j.val = j.val; omega

theorem slabW2_apply (i : grid0.Coords) (k : Fin 8) (hk : (i 0).val = k.val) (x : Vec F S8x1024x512 .bf16)
    (j : Fin 1024) (d : Fin 512) : slabW2 i x (ix3 (0 : Fin 1) j d) = x (ix3 k j d) := by
  have e := k0_off3_eq i
  refine congrArg x (funext fun ax => Fin.ext ?_)
  match ax with
  | ⟨0, _⟩ => show k0_off3 i 0 + 1 * 0 = k.val; rw [e]; show (i 0).val + 1 * 0 = k.val; omega
  | ⟨1, _⟩ => show k0_off3 i 1 + 1 * j.val = j.val; rw [e]; show 0 + 1 * j.val = j.val; omega
  | ⟨2, _⟩ => show k0_off3 i 2 + 1 * d.val = d.val; rw [e]; show 0 + 1 * d.val = d.val; omega

theorem slabRow_apply (i : grid0.Coords) (k : Fin 8) (hk : (i 0).val = k.val) (x : Vec F S8x512 .f32)
    (d : Fin 512) : slabRow i x (ix2 (0 : Fin 1) d) = x (ix2 k d) := by
  have e := k0_off4_eq i
  refine congrArg x (funext fun ax => Fin.ext ?_)
  match ax with
  | ⟨0, _⟩ => show k0_off4 i 0 + 1 * 0 = k.val; rw [e]; show (i 0).val + 1 * 0 = k.val; omega
  | ⟨1, _⟩ => show k0_off4 i 1 + 1 * d.val = d.val; rw [e]; show 0 + 1 * d.val = d.val; omega

/-- The staging buffer after the body: the stored value of the point's input block and its group's slabs. -/
theorem out_eq (c : Dev nD) (i : grid0.Coords) (arg2 : Memref sig .tc .vmem S1x2048x512 .bf16) (harg2 : arg2.IsWhole) (arg3 : Memref sig .tc .vmem S8x512x1024 .bf16) (harg3 : arg3.IsWhole) (arg4 : Memref sig .tc .vmem S8x1024 .f32) (harg4 : arg4.IsWhole) (arg5 : Memref sig .tc .vmem S8x1024x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S2048x512 .f32) (harg9 : arg9.IsWhole)
    (x0 : Vec F S1x2048x512 .bf16) (x1 : Vec F S8x512x1024 .bf16) (x2 : Vec F S8x1024 .f32) (x3 : Vec F S8x1024x512 .bf16) (x4 : Vec F S8x512 .f32) (x5 : Vec F S8x512 .f32) (x6 : Vec F S8x512 .f32) :
    out0_A_7 c i arg2 harg2 arg3 harg3 arg4 harg4 arg5 harg5 arg6 harg6 arg7 harg7 arg8 harg8 arg9 harg9 x0 x1 x2 x3 x4 x5 x6
      = k0_pay1 (k0_pay4 x0 (slabW1 i x1) (slabB1 i x2) (slabW2 i x3) (slabRow i x4))
          (k0_pay5 x0 (slabW1 i x1) (slabB1 i x2) (slabW2 i x3) (slabRow i x4)) (slabRow i x5) (slabRow i x6) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  sl_unfold_run_names
  rw [View.canon_unit_zero zeros2]
  simp only [View.readAt_eq_ld, harg2.read_unread, harg3.read_unread, harg4.read_unread, harg5.read_unread,
    harg6.read_unread, harg7.read_unread, harg8.read_unread, View.ld_unit_zero (S := S1x2048x512) zeros3]

end Cert.KernelIdeal.Stored

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.Body.lean ====
/-
  The body's arithmetic, read at an entry.

  One grid point holds a [2048, 512] tile of batch rows of one group, that group's two weight matrices and its four
  512- or 1024-vectors. Row `r` of what it stores depends on row `r` of the tile only: the two matrix products into a
  zero accumulator are plain sums over the contracted coordinate, a [1, n] vector broadcast down the rows reads its
  entry of the column, the two lane sums are sums along the row, and a per-row scalar kept as a [2048, 1] column and
  broadcast along the row reads the row's scalar. Conversions to a narrower float format change nothing at the ideal
  values. So the stored entry (r, d) is the specification's normalised second-layer row of tile row `r`, at `d`.
-/
import proofs.«114652_j85031762526811_1_alg».proof.Proof.Gen.KernelIdeal.Skeleton
import proofs.«114652_j85031762526811_1_alg».proof.Proof.Spec
import proofs.«114652_j85031762526811_1_alg».proof.Proof.LibPlainDot
import proofs.«114652_j85031762526811_1_alg».proof.Proof.LibRowReads
import proofs.«114652_j85031762526811_1_alg».proof.Proof.LibColumnReads
import Idealize.ShloMosaic.Lib.ValueLayout

noncomputable section

namespace Cert.KernelIdeal.Body

open Cert.KernelIdeal Cert.KernelIdeal.Gen Cert.GroupMlp Idealize.ShloMosaic Idealize.ShloMosaic.ValueIdx

section
variable (v0 : FVec Ideal S1x2048x512 .bf16) (v3 : FVec Ideal S1x512x1024 .bf16) (v6 : FVec Ideal S1x1024 .f32)
  (v17 : FVec Ideal S1x1024x512 .bf16) (v20 : FVec Ideal S1x512 .f32)

/-- Tile row `r`'s second-layer row, from the loaded pieces (each with its leading unit axis). -/
def tileSecond (r : Fin 2048) : Fin 512 → EReal :=
  second (hidden (fun a => v0 (ix3 (0 : Fin 1) r a)) (fun a j => v3 (ix3 (0 : Fin 1) a j)) (fun j => v6 (ix2 (0 : Fin 1) j)))
    (fun j d => v17 (ix3 (0 : Fin 1) j d)) (fun d => v20 (ix2 (0 : Fin 1) d))

/-- The second layer's output at (r, d). -/
theorem second_apply (r : Fin 2048) (d : Fin 512) :
    k0_pay2 (F := Ideal) v0 v3 v6 v17 v20 (ix2 r d) = tileSecond v0 v3 v6 v17 v20 r d := by
  unfold k0_pay2 tileSecond second
  dsimp only
  refine congrArg₂ (· + ·) ?_ ?_
  · refine (Cert.Lib.PlainDot.matmul_zero_apply 2048 1024 512 none _ _ (ix2 r d)).trans ?_
    refine Finset.sum_congr rfl fun j _ => congrArg₂ (· * ·) ?_ (shapeCast_1ab_ab_apply v17 _ j d)
    unfold Cert.GroupMlp.hidden
    have pre : ∀ q : Fin 1024, (addf (matmul dot_S2048x512_S512x1024_S2048x1024_1_0_0_1_n_n none
          (shapeCast S2048x512 v0 shapeCasts_S1x2048x512_S2048x512) (shapeCast S512x1024 v3 shapeCasts_S1x512x1024_S512x1024)
          (constant (F := Ideal) S2048x1024 .f32 0x00000000#32))
        (broadcastTo S2048x1024 (shapeCast S1x1024 (shapeCast S1024 v6 shapeCasts_S1x1024_S1024) shapeCasts_S1024_S1x1024)
          broadcasts_S1x1024_S2048x1024)) (ix2 r q)
        = (∑ a : Fin 512, v0 (ix3 (0 : Fin 1) r a) * v3 (ix3 (0 : Fin 1) a q)) + v6 (ix2 (0 : Fin 1) q) := fun q => by
      refine congrArg₂ (· + ·) ?_ ?_
      · refine (Cert.Lib.PlainDot.matmul_zero_apply 2048 512 1024 none _ _ (ix2 r q)).trans ?_
        exact Finset.sum_congr rfl fun a _ =>
          congrArg₂ (· * ·) (shapeCast_1ab_ab_apply v0 _ r a) (shapeCast_1ab_ab_apply v3 _ a q)
      · refine (broadcastTo_1b_ab_apply _ _ r q).trans ?_
        exact congrFun (shapeCast_shapeCast v6 _ _) (ix2 (0 : Fin 1) q)
    exact congrArg₂ (· * ·) (congrArg (max · zeroLit) (pre j)) (congrArg (max · zeroLit) (pre j))
  · refine (broadcastTo_1b_ab_apply _ _ r d).trans ?_
    exact congrFun (shapeCast_shapeCast v20 _ _) (ix2 (0 : Fin 1) d)

/-- The row mean, kept as a column, at (r, ·). -/
theorem mean_apply (r : Fin 2048) (u : Fin 1) :
    k0_pay3 (F := Ideal) v0 v3 v6 v17 v20 (ix2 r u) = mean (tileSecond v0 v3 v6 v17 v20 r) := by
  unfold k0_pay3 mean
  dsimp only
  refine congrArg (Ideal.div · countLit) ?_
  refine (Cert.LibColumnReads.shapeCast_a_a1_apply _ _ r u).trans ?_
  refine (Cert.LibRowReads.rowSum_apply _ _ _ _ _ r).trans ?_
  exact Finset.sum_congr rfl fun d _ => second_apply v0 v3 v6 v17 v20 r d

/-- The centred second-layer row at (r, d). -/
theorem centred_apply (r : Fin 2048) (d : Fin 512) :
    k0_pay4 (F := Ideal) v0 v3 v6 v17 v20 (ix2 r d)
      = tileSecond v0 v3 v6 v17 v20 r d - mean (tileSecond v0 v3 v6 v17 v20 r) := by
  unfold k0_pay4
  refine congrArg₂ (· - ·) (second_apply v0 v3 v6 v17 v20 r d) ?_
  refine (Cert.LibColumnReads.broadcastTo_a1_ab_apply _ _ r d).trans ?_
  exact mean_apply v0 v3 v6 v17 v20 r (0 : Fin 1)

/-- The shifted variance, kept as a column, at (r, ·). -/
theorem variance_apply (r : Fin 2048) (u : Fin 1) :
    k0_pay5 (F := Ideal) v0 v3 v6 v17 v20 (ix2 r u)
      = Ideal.div (∑ e : Fin 512, (tileSecond v0 v3 v6 v17 v20 r e - mean (tileSecond v0 v3 v6 v17 v20 r))
          * (tileSecond v0 v3 v6 v17 v20 r e - mean (tileSecond v0 v3 v6 v17 v20 r))) countLit + epsLit := by
  unfold k0_pay5
  dsimp only
  refine congrArg₂ (· + ·) (congrArg (Ideal.div · countLit) ?_) rfl
  refine (Cert.LibColumnReads.shapeCast_a_a1_apply _ _ r u).trans ?_
  refine (Cert.LibRowReads.rowSum_apply _ _ _ _ _ r).trans ?_
  exact Finset.sum_congr rfl fun e _ =>
    congrArg₂ (· * ·) (centred_apply v0 v3 v6 v17 v20 r e) (centred_apply v0 v3 v6 v17 v20 r e)
end

/-- The last stretch: normalise, scale, shift, at (r, d). -/
theorem finish_apply (v38 : FVec Ideal S2048x512 .f32) (v40 : FVec Ideal S2048x1 .f32) (v45 v48 : FVec Ideal S1x512 .f32)
    (r : Fin 2048) (d : Fin 512) :
    k0_pay1 (F := Ideal) v38 v40 v45 v48 (ix2 r d)
      = v38 (ix2 r d) * Ideal.rsqrt (v40 (ix2 r (0 : Fin 1))) * v45 (ix2 (0 : Fin 1) d) + v48 (ix2 (0 : Fin 1) d) := by
  unfold k0_pay1
  refine congrArg₂ (· + ·) (congrArg₂ (· * ·) (congrArg₂ (· * ·) rfl ?_) ?_) ?_
  · exact Cert.LibColumnReads.broadcastTo_a1_ab_apply _ _ r d
  · refine (broadcastTo_1b_ab_apply _ _ r d).trans ?_
    exact congrFun (shapeCast_shapeCast v45 _ _) (ix2 (0 : Fin 1) d)
  · refine (broadcastTo_1b_ab_apply _ _ r d).trans ?_
    exact congrFun (shapeCast_shapeCast v48 _ _) (ix2 (0 : Fin 1) d)

/-- What the body stores, at (r, d): the normalised second-layer row of tile row `r`. -/
theorem stored_apply (v0 : FVec Ideal S1x2048x512 .bf16) (v3 : FVec Ideal S1x512x1024 .bf16) (v6 : FVec Ideal S1x1024 .f32)
    (v17 : FVec Ideal S1x1024x512 .bf16) (v20 v45 v48 : FVec Ideal S1x512 .f32) (r : Fin 2048) (d : Fin 512) :
    k0_pay1 (F := Ideal) (k0_pay4 v0 v3 v6 v17 v20) (k0_pay5 v0 v3 v6 v17 v20) v45 v48 (ix2 r d)
      = normalized (tileSecond v0 v3 v6 v17 v20 r) (fun e => v45 (ix2 (0 : Fin 1) e)) (fun e => v48 (ix2 (0 : Fin 1) e)) d := by
  rw [finish_apply, centred_apply, variance_apply]
  rfl

/-- The same with the loaded pieces named: whatever the seven pieces are known to be at the indices the row reads,
    the stored entry is the specification's normalised row of those. -/
theorem stored_eq_of (v0 : FVec Ideal S1x2048x512 .bf16) (v3 : FVec Ideal S1x512x1024 .bf16) (v6 : FVec Ideal S1x1024 .f32)
    (v17 : FVec Ideal S1x1024x512 .bf16) (v20 v45 v48 : FVec Ideal S1x512 .f32) (r : Fin 2048) (d : Fin 512)
    (x : Fin 512 → EReal) (w1 : Fin 512 → Fin 1024 → EReal) (c1 : Fin 1024 → EReal) (w2 : Fin 1024 → Fin 512 → EReal)
    (c2 g s : Fin 512 → EReal)
    (hx : ∀ a, v0 (ix3 (0 : Fin 1) r a) = x a) (hw1 : ∀ a j, v3 (ix3 (0 : Fin 1) a j) = w1 a j)
    (hc1 : ∀ j, v6 (ix2 (0 : Fin 1) j) = c1 j) (hw2 : ∀ j e, v17 (ix3 (0 : Fin 1) j e) = w2 j e)
    (hc2 : ∀ e, v20 (ix2 (0 : Fin 1) e) = c2 e) (hg : ∀ e, v45 (ix2 (0 : Fin 1) e) = g e)
    (hs : ∀ e, v48 (ix2 (0 : Fin 1) e) = s e) :
    k0_pay1 (F := Ideal) (k0_pay4 v0 v3 v6 v17 v20) (k0_pay5 v0 v3 v6 v17 v20) v45 v48 (ix2 r d)
      = normalized (second (hidden x w1 c1) w2 c2) g s d := by
  rw [stored_apply]
  unfold tileSecond
  rw [show (fun a => v0 (ix3 (0 : Fin 1) r a)) = x from funext hx,
    show (fun a j => v3 (ix3 (0 : Fin 1) a j)) = w1 from funext fun a => funext (hw1 a),
    show (fun j => v6 (ix2 (0 : Fin 1) j)) = c1 from funext hc1,
    show (fun j e => v17 (ix3 (0 : Fin 1) j e)) = w2 from funext fun j => funext (hw2 j),
    show (fun e => v20 (ix2 (0 : Fin 1) e)) = c2 from funext hc2,
    show (fun e => v45 (ix2 (0 : Fin 1) e)) = g from funext hg,
    show (fun e => v48 (ix2 (0 : Fin 1) e)) = s from funext hs]

end Cert.KernelIdeal.Body

end
-- ==== Proof.WholeArray.lean ====
/-
  From what each grid point writes back to the whole output array.

  The grid is 8 groups by 8 batch tiles. Point (k, i) is handed rows 2048 i … 2048 i + 2047 of group `k`'s slice of the
  regrouped input, and all eight groups' weights, biases, scales and shifts whole; it writes back rows 2048 i … of
  columns 512 k … 512 k + 511 of the output. The regrouped input is made before the launch by a reshape to
  [16384, 512, 8], a transpose bringing the group axis first, and a conversion to a narrower format that changes nothing
  at the ideal values; likewise the two weight stacks are only converted. So the block a point writes back is the
  corresponding block of the specification's array of the launch arguments, the 64 blocks tile the output, and the array
  after the run is the specification.
-/
import proofs.«114652_j85031762526811_1_alg».proof.Proof.Gen.KernelIdeal.Value
import proofs.«114652_j85031762526811_1_alg».proof.Proof.StoredBlock
import proofs.«114652_j85031762526811_1_alg».proof.Proof.Body
import proofs.«114652_j85031762526811_1_alg».proof.Proof.Spec
import Idealize.ShloMosaic.Lib.StableHlo.Run

noncomputable section

namespace Cert.KernelIdeal.Whole

open Cert.KernelIdeal Cert.KernelIdeal.Gen Cert.GroupMlp Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## The printed index maps over the grid -/

/-- Decided over the 64 points: the input window follows (group, tile), the output window (tile, group), the six resident
    windows stay at block zero. -/
theorem grid_facts : ∀ t : Fin cfg0.N,
    win0_0.index t (0 : Fin 3) = (grid0.coords t 0).val ∧ win0_0.index t (1 : Fin 3) = (grid0.coords t 1).val
    ∧ win0_0.index t (2 : Fin 3) = 0
    ∧ win0_7.index t (0 : Fin 2) = (grid0.coords t 1).val ∧ win0_7.index t (1 : Fin 2) = (grid0.coords t 0).val
    ∧ (grid0.coords t 0).val < 8 ∧ (grid0.coords t 1).val < 8 :=
  (by decide +kernel : ∀ t : Fin grid0.N, _)

theorem resident_facts : ∀ t : Fin cfg0.N,
    (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Every (tile, group) pair is some point's. -/
theorem grid_onto : ∀ (q0 q1 : Fin 8), ∃ t : Fin cfg0.N, win0_7.index t = ![q0.val, q1.val] :=
  (by decide +kernel : ∀ (q0 q1 : Fin 8), ∃ t : Fin grid0.N, win0_7.index t = ![q0.val, q1.val])

/-! ## What the region finds in the arrays the host wrote -/

/-- The regrouped input: reshape, transpose, and a conversion that is the identity here. -/
theorem regroupedArr (c : Dev nD) : (V m c main_v2 : S8x16384x512.Idx → EReal)
    = truncf (F := Ideal) .bf16 (transpose S8x16384x512 [2, 0, 1]
        (shapeCast S16384x512x8 (m ((c : Thread nD τ).loc main_arg0)) shapeCasts_S16384x4096_S16384x512x8)
        transposes_S16384x512x8_S8x16384x512_2_0_1) bitsLt_bf16_f32 := by
  dsimp only [Gen.V, Gen.hostOps0]; after_results; rfl

theorem firstWeightsArr (c : Dev nD) : (V m c main_v3 : S8x512x1024.Idx → EReal)
    = truncf (F := Ideal) .bf16 (m ((c : Thread nD τ).loc main_arg1)) bitsLt_bf16_f32 := by
  dsimp only [Gen.V, Gen.hostOps0]; after_results

theorem secondWeightsArr (c : Dev nD) : (V m c main_v4 : S8x1024x512.Idx → EReal)
    = truncf (F := Ideal) .bf16 (m ((c : Thread nD τ).loc main_arg3)) bitsLt_bf16_f32 := by
  dsimp only [Gen.V, Gen.hostOps0]; after_results

/-- The regrouped input at (k, b, a) is the input at row `b`, column `8a + k`. -/
theorem regrouped_apply (c : Dev nD) (k : Fin 8) (b : Fin 16384) (a : Fin 512) :
    (V m c main_v2 : S8x16384x512.Idx → EReal) (ix3 k b a) = groupInput (m ((c : Thread nD τ).loc main_arg0)) k b a := by
  refine (congrFun (regroupedArr m c) (ix3 k b a)).trans ?_
  refine (truncf_apply _ bitsLt_bf16_f32 (ix3 k b a)).trans ?_
  refine (transpose_apply [2, 0, 1] _ transposes_S16384x512x8_S8x16384x512_2_0_1 (ix3 k b a) (ix3 b a k)
    (fun ax => by match ax with | ⟨0, _⟩ => rfl | ⟨1, _⟩ => rfl | ⟨2, _⟩ => rfl)).trans ?_
  refine shapeCast_apply _ shapeCasts_S16384x4096_S16384x512x8 (ix3 b a k) (ix2 b (columnOf a k)) ?_
  have hk := k.isLt; have ha := a.isLt
  rw [Shape.rowMajor_val_two, Shape.rowMajor_val_three]
  show b.val * 4096 + (a.val * 8 + k.val) = (b.val * 512 + a.val) * 8 + k.val
  omega

/-! ## The windows' blocks at a point -/

/-- Row `r` of the input block at point (k, i) is group `k`'s view of batch row 2048 i + r. -/
theorem inBlock_apply (c : Dev nD) (t : Fin cfg0.N) (k ib : Fin 8) (hk : (grid0.coords t 0).val = k.val)
    (hi : (grid0.coords t 1).val = ib.val) (r : Fin 2048) (a : Fin 512) :
    (iblk m c 0 t : FVec Ideal S1x2048x512 .bf16) (ix3 (0 : Fin 1) r a)
      = groupInput (m ((c : Thread nD τ).loc main_arg0)) k ⟨ib.val * 2048 + r.val, by have := ib.isLt; have := r.isLt; omega⟩ a := by
  obtain ⟨e0, e1, e2, -⟩ := grid_facts t
  refine Eq.trans ?_ (regrouped_apply m c k _ a)
  unfold iblk
  rw [View.read_apply]
  show V m c main_v2 _ = V m c main_v2 _
  refine congrArg (V m c main_v2) (funext fun ax => Fin.ext ?_)
  match ax with
  | ⟨0, _⟩ => show win0_0.index t (0 : Fin 3) * 1 + 1 * 0 = k.val; omega
  | ⟨1, _⟩ => show win0_0.index t (1 : Fin 3) * 2048 + 1 * r.val = ib.val * 2048 + r.val; omega
  | ⟨2, _⟩ => show win0_0.index t (2 : Fin 3) * 512 + 1 * a.val = a.val; omega

/-- The six resident windows hold their whole arrays at every point. -/
theorem firstWeightsBlock (c : Dev nD) (t : Fin cfg0.N) :
    (iblk m c 1 t : FVec Ideal S8x512x1024 .bf16) = (m ((c : Thread nD τ).loc main_arg1)) := by
  obtain ⟨⟨e0, e1, e2⟩, -⟩ := resident_facts t
  funext y
  refine Eq.trans ?_ (congrFun (firstWeightsArr m c) y)
  unfold iblk
  rw [View.read_apply]
  show V m c main_v3 _ = V m c main_v3 _
  refine congrArg (V m c main_v3) (funext fun ax => Fin.ext ?_)
  match ax with
  | ⟨0, _⟩ => show win0_1.index t (0 : Fin 3) * 8 + 1 * (y 0).val = (y 0).val; omega
  | ⟨1, _⟩ => show win0_1.index t (1 : Fin 3) * 512 + 1 * (y 1).val = (y 1).val; omega
  | ⟨2, _⟩ => show win0_1.index t (2 : Fin 3) * 1024 + 1 * (y 2).val = (y 2).val; omega

theorem firstBiasBlock (c : Dev nD) (t : Fin cfg0.N) :
    (iblk m c 2 t : FVec Ideal S8x1024 .f32) = (m ((c : Thread nD τ).loc main_arg2)) := by
  obtain ⟨-, ⟨e0, e1⟩, -⟩ := resident_facts t
  funext y
  refine Eq.trans ?_ (congrFun (V_main_arg2 m c) y)
  unfold iblk
  rw [View.read_apply]
  show V m c main_arg2 _ = V m c main_arg2 _
  refine congrArg (V m c main_arg2) (funext fun ax => Fin.ext ?_)
  match ax with
  | ⟨0, _⟩ => show win0_2.index t (0 : Fin 2) * 8 + 1 * (y 0).val = (y 0).val; omega
  | ⟨1, _⟩ => show win0_2.index t (1 : Fin 2) * 1024 + 1 * (y 1).val = (y 1).val; omega

theorem secondWeightsBlock (c : Dev nD) (t : Fin cfg0.N) :
    (iblk m c 3 t : FVec Ideal S8x1024x512 .bf16) = (m ((c : Thread nD τ).loc main_arg3)) := by
  obtain ⟨-, -, ⟨e0, e1, e2⟩, -⟩ := resident_facts t
  funext y
  refine Eq.trans ?_ (congrFun (secondWeightsArr m c) y)
  unfold iblk
  rw [View.read_apply]
  show V m c main_v4 _ = V m c main_v4 _
  refine congrArg (V m c main_v4) (funext fun ax => Fin.ext ?_)
  match ax with
  | ⟨0, _⟩ => show win0_3.index t (0 : Fin 3) * 8 + 1 * (y 0).val = (y 0).val; omega
  | ⟨1, _⟩ => show win0_3.index t (1 : Fin 3) * 1024 + 1 * (y 1).val = (y 1).val; omega
  | ⟨2, _⟩ => show win0_3.index t (2 : Fin 3) * 512 + 1 * (y 2).val = (y 2).val; omega

theorem secondBiasBlock (c : Dev nD) (t : Fin cfg0.N) :
    (iblk m c 4 t : FVec Ideal S8x512 .f32) = (m ((c : Thread nD τ).loc main_arg4)) := by
  obtain ⟨-, -, -, ⟨e0, e1⟩, -⟩ := resident_facts t
  funext y
  refine Eq.trans ?_ (congrFun (V_main_arg4 m c) y)
  unfold iblk
  rw [View.read_apply]
  show V m c main_arg4 _ = V m c main_arg4 _
  refine congrArg (V m c main_arg4) (funext fun ax => Fin.ext ?_)
  match ax with
  | ⟨0, _⟩ => show win0_4.index t (0 : Fin 2) * 8 + 1 * (y 0).val = (y 0).val; omega
  | ⟨1, _⟩ => show win0_4.index t (1 : Fin 2) * 512 + 1 * (y 1).val = (y 1).val; omega

theorem scaleBlock (c : Dev nD) (t : Fin cfg0.N) :
    (iblk m c 5 t : FVec Ideal S8x512 .f32) = (m ((c : Thread nD τ).loc main_arg5)) := by
  obtain ⟨-, -, -, -, ⟨e0, e1⟩, -⟩ := resident_facts t
  funext y
  refine Eq.trans ?_ (congrFun (V_main_arg5 m c) y)
  unfold iblk
  rw [View.read_apply]
  show V m c main_arg5 _ = V m c main_arg5 _
  refine congrArg (V m c main_arg5) (funext fun ax => Fin.ext ?_)
  match ax with
  | ⟨0, _⟩ => show win0_5.index t (0 : Fin 2) * 8 + 1 * (y 0).val = (y 0).val; omega
  | ⟨1, _⟩ => show win0_5.index t (1 : Fin 2) * 512 + 1 * (y 1).val = (y 1).val; omega

theorem shiftBlock (c : Dev nD) (t : Fin cfg0.N) :
    (iblk m c 6 t : FVec Ideal S8x512 .f32) = (m ((c : Thread nD τ).loc main_arg6)) := by
  obtain ⟨-, -, -, -, -, e0, e1⟩ := resident_facts t
  funext y
  refine Eq.trans ?_ (congrFun (V_main_arg6 m c) y)
  unfold iblk
  rw [View.read_apply]
  show V m c main_arg6 _ = V m c main_arg6 _
  refine congrArg (V m c main_arg6) (funext fun ax => Fin.ext ?_)
  match ax with
  | ⟨0, _⟩ => show win0_6.index t (0 : Fin 2) * 8 + 1 * (y 0).val = (y 0).val; omega
  | ⟨1, _⟩ => show win0_6.index t (1 : Fin 2) * 512 + 1 * (y 1).val = (y 1).val; omega

/-! ## What a point writes back, and the array after the run -/

/-- The specification's array of the launch arguments on core `c`. -/
def spec (c : Dev nD) : Buf (Elt Ideal) ((c : Thread nD τ).loc main_v5) :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back is block `t` of the specification's array. -/
theorem flushed_eq (c : Dev nD) (t : Fin cfg0.N) :
    (dats m 0 c).flushed 7 t = ((cfg0.win 7).blk t).view.read (Elt Ideal) (spec m c) := by
  obtain ⟨-, -, -, e3, e4, hk8, hi8⟩ := grid_facts t
  obtain ⟨k, hk⟩ : ∃ k : Fin 8, (grid0.coords t 0).val = k.val := ⟨⟨_, hk8⟩, rfl⟩
  obtain ⟨ib, hi⟩ : ∃ ib : Fin 8, (grid0.coords t 1).val = ib.val := ⟨⟨_, hi8⟩, rfl⟩
  refine (Value.flushed7_A m c t).trans ?_
  rw [Stored.out_eq]
  funext y
  obtain ⟨r, d, rfl⟩ : ∃ (r : Fin 2048) (d : Fin 512), y = ix2 r d := ⟨y 0, y 1, eq_ix2 (n0 := 2048) (n1 := 512) y⟩
  have hb : ib.val * 2048 + r.val < 16384 := by have := ib.isLt; have := r.isLt; omega
  have hc : k.val * 512 + d.val < 4096 := by have := k.isLt; have := d.isLt; omega
  have hemb : ((cfg0.win 7).blk t).view.emb (ix2 r d)
      = ix2 (⟨ib.val * 2048 + r.val, hb⟩ : Fin 16384) (⟨k.val * 512 + d.val, hc⟩ : Fin 4096) := by
    refine funext fun ax => Fin.ext ?_
    match ax with
    | ⟨0, _⟩ => show win0_7.index t (0 : Fin 2) * 2048 + 1 * r.val = ib.val * 2048 + r.val; omega
    | ⟨1, _⟩ => show win0_7.index t (1 : Fin 2) * 512 + 1 * d.val = k.val * 512 + d.val; omega
  have hg : groupOf ⟨k.val * 512 + d.val, hc⟩ = k := Fin.ext (by
    have := d.isLt; show (k.val * 512 + d.val) / 512 = k.val; omega)
  have hp : placeOf ⟨k.val * 512 + d.val, hc⟩ = d := Fin.ext (by
    have := d.isLt; show (k.val * 512 + d.val) % 512 = d.val; omega)
  show _ = spec m c (((cfg0.win 7).blk t).view.emb (ix2 r d))
  rw [hemb]
  unfold spec
  rw [result_apply, hg, hp]
  exact Body.stored_eq_of (iblk m c 0 t) (Stored.slabW1 (grid0.coords t) (iblk m c 1 t))
    (Stored.slabB1 (grid0.coords t) (iblk m c 2 t)) (Stored.slabW2 (grid0.coords t) (iblk m c 3 t))
    (Stored.slabRow (grid0.coords t) (iblk m c 4 t)) (Stored.slabRow (grid0.coords t) (iblk m c 5 t))
    (Stored.slabRow (grid0.coords t) (iblk m c 6 t)) r d
    (groupInput (m ((c : Thread nD τ).loc main_arg0)) k ⟨ib.val * 2048 + r.val, hb⟩)
    (fun a j => (m ((c : Thread nD τ).loc main_arg1)) (ix3 k a j)) (fun j => (m ((c : Thread nD τ).loc main_arg2)) (ix2 k j))
    (fun j e => (m ((c : Thread nD τ).loc main_arg3)) (ix3 k j e)) (fun e => (m ((c : Thread nD τ).loc main_arg4)) (ix2 k e))
    (fun e => (m ((c : Thread nD τ).loc main_arg5)) (ix2 k e)) (fun e => (m ((c : Thread nD τ).loc main_arg6)) (ix2 k e))
    (fun a => inBlock_apply m c t k ib hk hi r a)
    (fun a j => (Stored.slabW1_apply (grid0.coords t) k hk (iblk m c 1 t) a j).trans
      (congrFun (firstWeightsBlock m c t) (ix3 k a j)))
    (fun j => (Stored.slabB1_apply (grid0.coords t) k hk (iblk m c 2 t) j).trans
      (congrFun (firstBiasBlock m c t) (ix2 k j)))
    (fun j e => (Stored.slabW2_apply (grid0.coords t) k hk (iblk m c 3 t) j e).trans
      (congrFun (secondWeightsBlock m c t) (ix3 k j e)))
    (fun e => (Stored.slabRow_apply (grid0.coords t) k hk (iblk m c 4 t) e).trans
      (congrFun (secondBiasBlock m c t) (ix2 k e)))
    (fun e => (Stored.slabRow_apply (grid0.coords t) k hk (iblk m c 5 t) e).trans
      (congrFun (scaleBlock m c t) (ix2 k e)))
    (fun e => (Stored.slabRow_apply (grid0.coords t) k hk (iblk m c 6 t) e).trans
      (congrFun (shiftBlock m c t) (ix2 k e)))

/-- An index of the output is in point `t`'s block iff each coordinate is in the block's range on its axis. -/
theorem mem_blk (t : Fin cfg0.N) (i : S16384x4096.Idx) :
    i ∈ ((cfg0.win 7).blk t).view.set ↔ ∀ a : Fin 2, win0_7.index t a * S2048x512.size a ≤ (i a).val
      ∧ (i a).val < win0_7.index t a * S2048x512.size a + S2048x512.size a := by
  show i ∈ ((View.whole main_v5).slice (win0_7.rect t)).set ↔ _
  rw [View.set_slice_whole, Rect.mem_set_unit]
  exact Iff.rfl

/-- The 64 blocks cover the output: row `b`, column `c` is in the block of tile `b / 2048`, group `c / 512`. -/
theorem covered (i : S16384x4096.Idx) :
    ∃ t : Fin cfg0.N, (cfg0.win 7).flush t = true ∧ i ∈ ((cfg0.win 7).blk t).view.set := by
  have hi0 : (i 0).val < 16384 := (i 0).isLt
  have hi1 : (i 1).val < 4096 := (i 1).isLt
  obtain ⟨t, ht⟩ := grid_onto ⟨(i 0).val / 2048, by omega⟩ ⟨(i 1).val / 512, by omega⟩
  have q0 : win0_7.index t (0 : Fin 2) = (i 0).val / 2048 := congrFun ht 0
  have q1 : win0_7.index t (1 : Fin 2) = (i 1).val / 512 := congrFun ht 1
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 512 ≤ (i 1).val ∧ (i 1).val < win0_7.index t (1 : Fin 2) * 512 + 512
    omega

/-- The output array after the run is the specification's. -/
theorem final (c : Dev nD) : (dats m 0 c).arrAt 7 cfg0.N = spec m c :=
  (dats m 0 c).arrAt_eq_of_cover 7 (spec m c) (fun t _ => flushed_eq m c t) covered

/-- The run, read: the output at the specification's array of the launch arguments, the arguments unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Whole

end
-- ==== Proof.lean ====
/-
  Eight per-group perceptrons with layer normalisation, tiled over a grid, against the same computation done on whole
  arrays.

  Both programs deal the 4096 input columns round-robin to 8 groups, push each group's 512 columns through that
  group's own network — a linear layer to 1024 features, the squared rectifier, a linear layer to 512 features — then
  normalise each 512-vector (mean, variance plus ε, reciprocal square root), scale and shift it with the group's
  parameters, and lay the 8 results side by side. The kernel does this on an 8 × 8 grid, one group and 2048 batch
  rows per point, with the weights resident; the reference does it with batched contractions over [8, 16384, ·]
  arrays. Over the extended reals the two are the same function entry by entry, with the same operations in the same
  order on each entry: a matrix product into a zero accumulator and the host's contraction are the same sum, a lane
  sum and the host's sum from zero are the same sum, conversions to a narrower format are the identity, and the
  three float literals (0, 512, ε) are the same words on both sides. No algebraic law beyond `0 + s = s` is used, so
  the finiteness of the inputs is not needed for the values.

  Modules: Spec states the function; RefStages reads the reference's stages as that function; StoredBlock reads what
  one grid point leaves in the output's staging buffer; Body reads that value at an entry; WholeArray reads the blocks
  the points are handed, shows each written-back block is a block of the function, and that the 64 blocks cover the
  output. The frames are the generated ones; the ideal pass rewrote nothing, so `preserves` is `True`.
-/
import proofs.«114652_j85031762526811_1_alg».proof.Defs
import proofs.«114652_j85031762526811_1_alg».proof.Proof.Gen.Kernel
import proofs.«114652_j85031762526811_1_alg».proof.Proof.Gen.Kernel.Skeleton
import proofs.«114652_j85031762526811_1_alg».proof.Proof.Gen.Kernel.Launch
import proofs.«114652_j85031762526811_1_alg».proof.Proof.Gen.Kernel.Points
import proofs.«114652_j85031762526811_1_alg».proof.Proof.Gen.Kernel.Frame
import proofs.«114652_j85031762526811_1_alg».proof.Proof.Gen.KernelIdeal
import proofs.«114652_j85031762526811_1_alg».proof.Proof.Gen.KernelIdeal.Skeleton
import proofs.«114652_j85031762526811_1_alg».proof.Proof.Gen.KernelIdeal.Launch
import proofs.«114652_j85031762526811_1_alg».proof.Proof.Gen.KernelIdeal.Points
import proofs.«114652_j85031762526811_1_alg».proof.Proof.Gen.KernelIdeal.Frame
import proofs.«114652_j85031762526811_1_alg».proof.Proof.Gen.ReferenceIdeal
import proofs.«114652_j85031762526811_1_alg».proof.Proof.Gen.Pre_finite_inputs
import proofs.«114652_j85031762526811_1_alg».proof.Proof.Gen.KernelIdeal.Value
import proofs.«114652_j85031762526811_1_alg».proof.Proof.Gen.ReferenceIdeal.Run
import proofs.«114652_j85031762526811_1_alg».proof.Proof.Gen.ReferenceIdeal.Read
import proofs.«114652_j85031762526811_1_alg».proof.Proof.RefStages
import proofs.«114652_j85031762526811_1_alg».proof.Proof.WholeArray
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values the kernel's output array ends at the specification's array of its arguments, and the
    reference's result at the specification's array of arguments that agree with them. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.Stages.result_eq,
    (hagree c).1, (hagree c).2.1, (hagree c).2.2.1, (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
